-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S2x512x512 : Shape := ⟨3, ![2, 512, 512]⟩
abbrev S513x256 : Shape := ⟨2, ![513, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S513x256 : S_.BroadcastsInDim S513x256 (![] : Fin 0 → Fin S513x256.rank)
  reducesTo_S513x256_S_d0_1 : S513x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S2x512x256 .f32) (main_arg1 : FVec F S2x512x512 .f32) (main_arg2 : FVec F S513x256 .f32) (main_arg3 : FVec F S256 .f32) (main_arg4 : FVec F S256x128 .f32) (main_arg5 : FVec F S128 .f32) (main_arg6 : FVec F S128x1 .f32) (main_arg7 : FVec F S1 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S513x256 .f32 := Host.absf main_arg2
  let main_cst_2 : FVec F S_ .f32 := constant S_ .f32 0x7F800000#32
  let main_v10 : FVec F S513x256 .f32 := broadcastInDim S513x256 ![] bcast_S_S513x256 main_cst_2
  let main_v11 : IVec S513x256 1 := cmpf .olt main_v9 main_v10
  let main_c_3 : IVec S_ 1 := constantI S_ 1 1#1
  let main_v12 : IVec S_ 1 := (fun x v => Host.reduce IntOp.andi x v reducesTo_S513x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S2x512x256 : Shape := ⟨3, ![2, 512, 256]⟩
abbrev S2x512x512 : Shape := ⟨3, ![2, 512, 512]⟩
abbrev S513x256 : Shape := ⟨2, ![513, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S1x256 : Shape := ⟨2, ![1, 256]⟩
abbrev S1024x256 : Shape := ⟨2, ![1024, 256]⟩
abbrev S1x1x256 : Shape := ⟨3, ![1, 1, 256]⟩
abbrev S1x128 : Shape := ⟨2, ![1, 128]⟩
abbrev S1x1 : Shape := ⟨2, ![1, 1]⟩
abbrev S1x128x256 : Shape := ⟨3, ![1, 128, 256]⟩
abbrev S1x128x128 : Shape := ⟨3, ![1, 128, 128]⟩
abbrev S128x256 : Shape := ⟨2, ![128, 256]⟩
abbrev S1x16x256 : Shape := ⟨3, ![1, 16, 256]⟩
abbrev S16x256 : Shape := ⟨2, ![16, 256]⟩
abbrev S1x16x128 : Shape := ⟨3, ![1, 16, 128]⟩
abbrev S16x128 : Shape := ⟨2, ![16, 128]⟩
abbrev S16x1x256 : Shape := ⟨3, ![16, 1, 256]⟩
abbrev S16x128x256 : Shape := ⟨3, ![16, 128, 256]⟩
abbrev S16x128x1 : Shape := ⟨3, ![16, 128, 1]⟩
abbrev S2048x256 : Shape := ⟨2, ![2048, 256]⟩
abbrev S2048x128 : Shape := ⟨2, ![2048, 128]⟩
abbrev S16x128x128 : Shape := ⟨3, ![16, 128, 128]⟩
abbrev S1x1x128 : Shape := ⟨3, ![1, 1, 128]⟩

abbrev nBuf : Space → Nat
  | .hbm => 24
  | .vmem => 13
  | .smem => 0
  | _ => 0

abbrev bufTy : (tb : Table) → Fin (tcTables nBuf tb) → BufTy
  | .hbm, ⟨0, _⟩ => ⟨S2x512x256, .f32⟩
  | .hbm, ⟨1, _⟩ => ⟨S2x512x512, .f32⟩
  | .hbm, ⟨2, _⟩ => ⟨S513x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x256, .f32⟩
  | .hbm, ⟨9, _⟩ => ⟨S256x256, .f32⟩
  | .hbm, ⟨10, _⟩ => ⟨S1x256, .f32⟩
  | .hbm, ⟨11, _⟩ => ⟨S256, .f32⟩
  | .hbm, ⟨12, _⟩ => ⟨S1024x256, .f32⟩
  | .hbm, ⟨13, _⟩ => ⟨S1024x256, .f32⟩
  | .hbm, ⟨14, _⟩ => ⟨S2x512x256, .f32⟩
  | .hbm, ⟨15, _⟩ => ⟨S1x1x256, .f32⟩
  | .hbm, ⟨16, _⟩ => ⟨S2x512x256, .f32⟩
  | .hbm, ⟨17, _⟩ => ⟨S2x512x256, .f32⟩
  | .hbm, ⟨18, _⟩ => ⟨S1024x256, .f32⟩
  | .hbm, ⟨19, _⟩ => ⟨S2x512x256, .f32⟩
  | .hbm, ⟨20, _⟩ => ⟨S1x256, .f32⟩
  | .hbm, ⟨21, _⟩ => ⟨S1x128, .f32⟩
  | .hbm, ⟨22, _⟩ => ⟨S1x1, .f32⟩
  | .hbm, ⟨23, _⟩ => ⟨S2x512x512, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x128, .f32⟩
  | .local _ .vmem, ⟨5, _⟩ => ⟨S1x128x128, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S1x128x128, .f32⟩
  | .local _ .vmem, ⟨12, _⟩ => ⟨S1x128x128, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 4], ![false, false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32 : BitVec 32 := 16#32
  let v18 : BitVec 32 := Scalar.muli arg12 c16_i32
  v18
def k0_off1 (k0_t1 : Fin k0_t1_loop.trips) : Fin 3 → Nat :=
  let c0_13 : Index := 0#32
  let c0_i32 : BitVec 32 := 0#32
  let c1_i32 : BitVec 32 := 1#32
  let arg12 : BitVec 32 := Scf.iv c0_i32 c1_i32 k0_t1
  let c16_i32 : BitVec 32 := 16#32
  let v18 : BitVec 32 := Scalar.muli arg12 c16_i32
  let v19 : BitVec 32 := v18
  let v20 : Index := Scalar.indexCast v19
  let c0_14 : Index := 0#32
  ![0, v20.toNat, 0]
def k0_off2 (k0_t1 : Fin k0_t1_loop.trips) : Fin 3 → Nat :=
  let c0_15 : Index := 0#32
  let c0_i32 : BitVec 32 := 0#32
  let c1_i32 : BitVec 32 := 1#32
  let arg12 : BitVec 32 := Scf.iv c0_i32 c1_i32 k0_t1
  let c16_i32 : BitVec 32 := 16#32
  let v18 : BitVec 32 := Scalar.muli arg12 c16_i32
  let v19 : BitVec 32 := v18
  let v24 : Index := Scalar.indexCast v19
  let c0_16 : Index := 0#32
  ![0, v24.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  slices_S513x256_S256x256_0_0 : S513x256.Slices ![0, 0] S256x256
  slices_S513x256_S256x256_256_0 : S513x256.Slices ![256, 0] S256x256
  slices_S513x256_S1x256_512_0 : S513x256.Slices ![512, 0] S1x256
  shapeCasts_S1x256_S256 : S1x256.ShapeCasts S256
  shapeCasts_S2x512x256_S1024x256 : S2x512x256.ShapeCasts S1024x256
  shapeCasts_S1024x256_S2x512x256 : S1024x256.ShapeCasts S2x512x256
  bcast_S256_S1x1x256_2 : S256.BroadcastsInDim S1x1x256 (![2] : Fin 1 → Fin S1x1x256.rank)
  bcast_S1x1x256_S2x512x256_0_1_2 : S1x1x256.BroadcastsInDim S2x512x256 (![0, 1, 2] : Fin 3 → Fin S2x512x256.rank)
  shapeCasts_S256_S1x256 : S256.ShapeCasts S1x256
  shapeCasts_S128_S1x128 : S128.ShapeCasts S1x128
  shapeCasts_S1_S1x1 : S1.ShapeCasts S1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  h_S1x16x256 : 0 < S1x16x256.numel
  shapeCasts_S1x16x256_S16x256 : S1x16x256.ShapeCasts S16x256
  h_S1x16x128 : 0 < S1x16x128.numel
  shapeCasts_S1x16x128_S16x128 : S1x16x128.ShapeCasts S16x128
  shapeCasts_S16x256_S16x1x256 : S16x256.ShapeCasts S16x1x256
  shapeCasts_S128x256_S1x128x256 : S128x256.ShapeCasts S1x128x256
  broadcasts_S16x1x256_S16x128x256 : S16x1x256.Broadcasts S16x128x256
  broadcasts_S1x128x256_S16x128x256 : S1x128x256.Broadcasts S16x128x256
  shapeCasts_S16x128_S16x128x1 : S16x128.ShapeCasts S16x128x1
  shapeCasts_S256_S1x1x256 : S256.ShapeCasts S1x1x256
  broadcasts_S16x128x1_S16x128x256 : S16x128x1.Broadcasts S16x128x256
  broadcasts_S1x1x256_S16x128x256 : S1x1x256.Broadcasts S16x128x256
  shapeCasts_S16x128x256_S2048x256 : S16x128x256.ShapeCasts S2048x256
  broadcasts_S1x128_S2048x128 : S1x128.Broadcasts S2048x128
  shapeCasts_S2048x128_S16x128x128 : S2048x128.ShapeCasts S16x128x128
  shapeCasts_S128_S1x1x128 : S128.ShapeCasts S1x1x128
  broadcasts_S1x1x128_S16x128x128 : S1x1x128.Broadcasts S16x128x128
  reduces_S16x128x128_S16x128 : S16x128x128.Reduces [2] S16x128
  shapeCasts_S16x128_S1x16x128 : S16x128.ShapeCasts S1x16x128
  dot_S1024x256_S256x256_S1024x256_1_0_0_1_n_n_wf : DotDims.WF S1024x256 S256x256 S1024x256 [1] [0] [0] [1] [] []
  dot_S2048x256_S256x128_S2048x128_1_0_0_1_n_n_wf : DotDims.WF S2048x256 S256x128 S2048x128 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x256.size a ≤ S1x128x256.size a
  k0_off2_inb : ∀ k0_t1 : Fin k0_t1_loop.trips, ∀ a, (k0_off2 k0_t1) a + S1x16x128.size a ≤ S1x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x512x256.size a
  hwx0_0 : ∀ i : grid0.Coords, EltTy.bits .f32 = 32 ∨ (Rect.block (s := S2x512x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S2x512x256.size a
  hwx0_1 : ∀ i : grid0.Coords, EltTy.bits .f32 = 32 ∨ (Rect.block (s := S2x512x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x512x512.size a
  hwx0_2 : ∀ i : grid0.Coords, EltTy.bits .f32 = 32 ∨ (Rect.block (s := S2x512x512) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x128.size a ≤ S2x512x512.size a
  hwx0_8 : ∀ i : grid0.Coords, EltTy.bits .f32 = 32 ∨ (Rect.block (s := S2x512x512) S1x128x128.size (cc0_transform_8 i) (hinb0_8 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v9) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x512x256 : Shape := ⟨3, ![2, 512, 256]⟩
abbrev S2x512x512 : Shape := ⟨3, ![2, 512, 512]⟩
abbrev S513x256 : Shape := ⟨2, ![513, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S2x512x1x256 : Shape := ⟨4, ![2, 512, 1, 256]⟩
abbrev S2x1x512x256 : Shape := ⟨4, ![2, 1, 512, 256]⟩
abbrev S2x512x512x256 : Shape := ⟨4, ![2, 512, 512, 256]⟩
abbrev S2x512x512x1 : Shape := ⟨4, ![2, 512, 512, 1]⟩
abbrev S1x256 : Shape := ⟨2, ![1, 256]⟩
abbrev S1x1x1x256 : Shape := ⟨4, ![1, 1, 1, 256]⟩
abbrev S_ : Shape := ⟨0, ![]⟩
abbrev S2x512x512x128 : Shape := ⟨4, ![2, 512, 512, 128]⟩
abbrev S1x1x1x128 : Shape := ⟨4, ![1, 1, 1, 128]⟩
abbrev S1x1x1x1 : Shape := ⟨4, ![1, 1, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x512, .f32⟩
  | .hbm, ⟨2, _⟩ => ⟨S513x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S256x256, .f32⟩
  | .hbm, ⟨9, _⟩ => ⟨S2x512x256, .f32⟩
  | .hbm, ⟨10, _⟩ => ⟨S256x256, .f32⟩
  | .hbm, ⟨11, _⟩ => ⟨S2x512x256, .f32⟩
  | .hbm, ⟨12, _⟩ => ⟨S2x512x1x256, .f32⟩
  | .hbm, ⟨13, _⟩ => ⟨S2x1x512x256, .f32⟩
  | .hbm, ⟨14, _⟩ => ⟨S2x512x512x256, .f32⟩
  | .hbm, ⟨15, _⟩ => ⟨S2x512x512x256, .f32⟩
  | .hbm, ⟨16, _⟩ => ⟨S2x512x512x256, .f32⟩
  | .hbm, ⟨17, _⟩ => ⟨S2x512x512x1, .f32⟩
  | .hbm, ⟨18, _⟩ => ⟨S1x256, .f32⟩
  | .hbm, ⟨19, _⟩ => ⟨S256, .f32⟩
  | .hbm, ⟨20, _⟩ => ⟨S1x1x1x256, .f32⟩
  | .hbm, ⟨21, _⟩ => ⟨S2x512x512x256, .f32⟩
  | .hbm, ⟨22, _⟩ => ⟨S2x512x512x256, .f32⟩
  | .hbm, ⟨23, _⟩ => ⟨S2x512x512x256, .f32⟩
  | .hbm, ⟨24, _⟩ => ⟨S2x512x512x256, .f32⟩
  | .hbm, ⟨25, _⟩ => ⟨S1x1x1x256, .f32⟩
  | .hbm, ⟨26, _⟩ => ⟨S2x512x512x256, .f32⟩
  | .hbm, ⟨27, _⟩ => ⟨S2x512x512x256, .f32⟩
  | .hbm, ⟨28, _⟩ => ⟨S_, .f32⟩
  | .hbm, ⟨29, _⟩ => ⟨S2x512x512x256, .f32⟩
  | .hbm, ⟨30, _⟩ => ⟨S2x512x512x256, .f32⟩
  | .hbm, ⟨31, _⟩ => ⟨S2x512x512x128, .f32⟩
  | .hbm, ⟨32, _⟩ => ⟨S1x1x1x128, .f32⟩
  | .hbm, ⟨33, _⟩ => ⟨S2x512x512x128, .f32⟩
  | .hbm, ⟨34, _⟩ => ⟨S2x512x512x128, .f32⟩
  | .hbm, ⟨35, _⟩ => ⟨S_, .f32⟩
  | .hbm, ⟨36, _⟩ => ⟨S2x512x512x128, .f32⟩
  | .hbm, ⟨37, _⟩ => ⟨S2x512x512x128, .f32⟩
  | .hbm, ⟨38, _⟩ => ⟨S2x512x512x1, .f32⟩
  | .hbm, ⟨39, _⟩ => ⟨S1x1x1x1, .f32⟩
  | .hbm, ⟨40, _⟩ => ⟨S2x512x512x1, .f32⟩
  | .hbm, ⟨41, _⟩ => ⟨S2x512x512x1, .f32⟩
  | .hbm, ⟨42, _⟩ => ⟨S2x512x512, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S513x256_S256x256_0_0 : S513x256.Slices ![0, 0] S256x256
  slices_S513x256_S256x256_256_0 : S513x256.Slices ![256, 0] S256x256
  bcast_S2x512x256_S2x512x1x256_0_1_3 : S2x512x256.BroadcastsInDim S2x512x1x256 (![0, 1, 3] : Fin 3 → Fin S2x512x1x256.rank)
  bcast_S2x512x256_S2x1x512x256_0_2_3 : S2x512x256.BroadcastsInDim S2x1x512x256 (![0, 2, 3] : Fin 3 → Fin S2x1x512x256.rank)
  bcast_S2x512x1x256_S2x512x512x256_0_1_2_3 : S2x512x1x256.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  bcast_S2x512x512_S2x512x512x1_0_1_2 : S2x512x512.BroadcastsInDim S2x512x512x1 (![0, 1, 2] : Fin 3 → Fin S2x512x512x1.rank)
  slices_S513x256_S1x256_512_0 : S513x256.Slices ![512, 0] S1x256
  shapeCasts_S1x256_S256 : S1x256.ShapeCasts S256
  bcast_S256_S1x1x1x256_3 : S256.BroadcastsInDim S1x1x1x256 (![3] : Fin 1 → Fin S1x1x1x256.rank)
  bcast_S2x512x512x1_S2x512x512x256_0_1_2_3 : S2x512x512x1.BroadcastsInDim S2x512x512x256 (![0, 1, 2, 3] : Fin 4 → Fin S2x512x512x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  dot_S2x512x256_S256x256_S2x512x256_2_0_01_1_n_n_wf : DotDims.WF S2x512x256 S256x256 S2x512x256 [2] [0] [0, 1] [1] [] []
  dot_S2x512x512x256_S256x128_S2x512x512x128_3_0_012_1_n_n_wf : DotDims.WF S2x512x512x256 S256x128 S2x512x512x128 [3] [0] [0, 1, 2] [1] [] []
  dot_S2x512x512x128_S128x1_S2x512x512x1_3_0_012_1_n_n_wf : DotDims.WF S2x512x512x128 S128x1 S2x512x512x1 [3] [0] [0, 1, 2] [1] [] []

variable [Facts₀]

def dot_S2x512x256_S256x256_S2x512x256_2_0_01_1_n_n : DotDims S2x512x256 S256x256 S2x512x256 where
  lhsContracting := [2]
  rhsContracting := [0]
  lhsNonContracting := [0, 1]
  rhsNonContracting := [1]
  lhsBatch := []
  rhsBatch := []
  wf := dot_S2x512x256_S256x256_S2x512x256_2_0_01_1_n_n_wf
def dot_S2x512x512x256_S256x128_S2x512x512x128_3_0_012_1_n_n : DotDims S2x512x512x256 S256x128 S2x512x512x128 where
  lhsContracting := [3]
  rhsContracting := [0]
  lhsNonContracting := [0, 1, 2]
  rhsNonContracting := [1]
  lhsBatch := []
  rhsBatch := []
  wf := dot_S2x512x512x256_S256x128_S2x512x512x128_3_0_012_1_n_n_wf
def dot_S2x512x512x128_S128x1_S2x512x512x1_3_0_012_1_n_n : DotDims S2x512x512x128 S128x1 S2x512x512x1 where
  lhsContracting := [3]
  rhsContracting := [0]
  lhsNonContracting := [0, 1, 2]
  rhsNonContracting := [1]
  lhsBatch := []
  rhsBatch := []
  wf := dot_S2x512x512x128_S128x1_S2x512x512x1_3_0_012_1_n_n_wf

class Facts : Prop extends Facts₀ where

variable [Facts]
-- ==== Proof.LibRank3Layout.lean ====
/-
  Layout operations of rank-three arrays read at an index, general in the extents and the element type.

  * a vector or matrix given unit axes by a shape cast: [a,b] → [a,1,b], [a,b] → [a,b,1], [a] → [1,1,a], [a,1] → [a];
  * the four broadcasts that fill unit axes of a rank-three array: [a,1,c], [1,b,c], [a,b,1], [1,1,c] → [a,b,c];
  * a rank-three array against its row-flattening: [a,b,c] → [a·b,c] and back, row (i, j) of the first being row
    i·b + j of the second.

  Each lemma names both indices by coordinates; its proof is one row-major equation or one case per axis.
-/
import Idealize.ShloMosaic.Lib.ValueIdx
import Idealize.ShloMosaic.Lib.Pipeline.Value

namespace Cert.Rank3Layout

open Idealize.ShloMosaic Idealize.ShloMosaic.ValueIdx

variable {α : Type}

/-! ## Unit axes added or dropped by a shape cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A rank-three array against its row-flattening -/

/-- An `[a, b, c]` array cast to `[a·b, c]` reads, at row `i·b + j` and column `k`, the operand at `(i, j, k)`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at row `i·b + j` and column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts that fill unit axes -/

/-- An `[a, 1, c]` array broadcast to `[a, b, c]` reads, at `(i, j, k)`, the operand at `(i, 0, k)`. -/
theorem broadcastTo_a1c_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Rank3Layout
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.PairScore.lean ====
/-
  The pairwise scorer, as mathematics on the extended reals.

  For one pair (i, j) of nodes the network sees three inputs of width H = 256 — a row `a` (node i's projection), a row
  `b` (node j's projection) and the pair's prior `p` times a weight row `w` — plus a bias row `e`; it adds them,
  clamps at zero, applies a 256 × 128 layer with bias and a clamp, then a 128 × 1 layer with bias:

      score = (∑ₙ max ((∑ₕ max (a h + b h + p · w h + e h) 0 · W₂ h n) + b₂ n) 0 · W₃ n) + b₃ .

  The two programs differ only in where the first bias enters: one adds `e` to `a` before the pair is formed, the other adds
  it last. Addition on the extended reals is commutative and associative at the infinities too, so the two arrangements are
  equal with no finiteness assumption (`bias_first`).
-/
import Idealize.ShloMosaic.PureOps.Ideal
import Idealize.ShloMosaic.Lib.ValueIdx

noncomputable section

namespace Cert.PairScore

open Idealize.ShloMosaic Idealize.ShloMosaic.ValueIdx

/-- The first hidden unit `h` of a pair, the bias added last: `max (((a + b) + p·w) + e) 0`. -/
def hidden (a b p w e : EReal) : EReal := max (((a + b) + p * w) + e) 0

/-- The same with the bias folded into the first row beforehand. -/
theorem bias_first (a b p w e : EReal) : max (((a + e) + b) + p * w) 0 = hidden a b p w e := by
  unfold hidden
  rw [add_right_comm a e b, add_right_comm (a + b) e (p * w)]

/-- The score of one pair from its hidden row: the two dense layers. -/
def score (hid : Fin 256 → EReal) (W2 : Fin 256 → Fin 128 → EReal) (b2 : Fin 128 → EReal) (W3 : Fin 128 → EReal) (b3 : EReal) : EReal :=
  (∑ n : Fin 128, max ((∑ h : Fin 256, hid h * W2 h n) + b2 n) 0 * W3 n) + b3

/-- Node `s` of batch `g` projected by rows `o … o + 255` of the first layer's weight: `∑ₖ x(g, s, k) · W₁(o + k, h)`. -/
def proj (o : ℕ) (ho : o + 256 ≤ 513) (x : (⟨3, ![2, 512, 256]⟩ : Shape).Idx → EReal) (W1 : (⟨2, ![513, 256]⟩ : Shape).Idx → EReal)
    (g : Fin 2) (s : Fin 512) (h : Fin 256) : EReal :=
  ∑ k : Fin 256, x (ix3 g s k) * W1 (ix2 (⟨o + k.val, by have := k.isLt; omega⟩ : Fin 513) h)

/-- THE RESULT: the score of every pair (i, j) of every batch, as one function of the eight argument arrays. -/
def scores (x : (⟨3, ![2, 512, 256]⟩ : Shape).Idx → EReal) (pr : (⟨3, ![2, 512, 512]⟩ : Shape).Idx → EReal)
    (W1 : (⟨2, ![513, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 1]⟩ : Shape).Idx → EReal) (b3 : (⟨1, ![1]⟩ : Shape).Idx → EReal) :
    (⟨3, ![2, 512, 512]⟩ : Shape).Idx → EReal := fun i =>
  score (fun h => hidden (proj 0 (by omega) x W1 (i 0) (i 1) h) (proj 256 (by omega) x W1 (i 0) (i 2) h)
      (pr (ix3 (i 0) (i 1) (i 2))) (W1 (ix2 (⟨512, by omega⟩ : Fin 513) h)) (b1 (ix1 h)))
    (fun h n => W2 (ix2 h n)) (fun n => b2 (ix1 n)) (fun n => W3 (ix2 n (0 : Fin 1))) (b3 (ix1 (0 : Fin 1)))

end Cert.PairScore

end
-- ==== Proof.ChunkPayload.lean ====
/-
  What one trip of the kernel's inner loop stores, read at an index.

  A trip handles 16 consecutive rows i of the 128 × 128 tile of pairs. From the 16 rows of the first projection
  (`v21`, with the bias already inside), all 128 rows of the second (`v0`), the 16 × 128 priors (`v25`) and the weight
  row (`v3`) it forms the first hidden layer for the 16 · 128 pairs, flattens the pairs to 2048 rows for the
  256 × 128 product, adds the bias row and clamps, then multiplies by the last weight column and sums over the 128
  units. Read at the pair (r, q) of the chunk each stage is the scorer's stage for that pair: the broadcasts repeat a
  coordinate, the reshapes renumber pair (r, q) as row 128·r + q, and the changes of float format are the identity on
  the extended reals.
-/
import proofs.«114371_j30897994727574_2_alg».proof.Proof.Gen.KernelIdeal.Skeleton
import proofs.«114371_j30897994727574_2_alg».proof.Proof.LibRank3Layout
import proofs.«114371_j30897994727574_2_alg».proof.Proof.LibPlainDot
import proofs.«114371_j30897994727574_2_alg».proof.Proof.PairScore
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.ChunkPayload

open Cert.KernelIdeal Cert.KernelIdeal.Gen Idealize.ShloMosaic Idealize.ShloMosaic.ValueIdx Cert.Rank3Layout Cert.PairScore

/-- The sixteen-bit zero denotes 0. -/
theorem zero_bf16 : Ideal.ofBits .bf16 0x0000#16 = 0 := IdealRules.sign_bit.ideal_zero .bf16

/-- The first hidden layer of the chunk's 16 × 128 pairs. -/
def firstLayer (v0 : Vec Ideal S1x128x256 .f32) (v3 : Vec Ideal S1x256 .f32) (v21 : Vec Ideal S1x16x256 .f32)
    (v25 : Vec Ideal S1x16x128 .f32) : FVec Ideal S16x128x256 .bf16 :=
  have v1 : FVec Ideal S128x256 .f32 := shapeCast S128x256 v0 shapeCasts_S1x128x256_S128x256
  have v2 : FVec Ideal S128x256 .bf16 := truncf .bf16 v1 bitsLt_bf16_f32
  have v4 : FVec Ideal S1x256 .f32 := shapeCast S1x256 v3 shapeCasts_S1x256_S1x256
  have v5 : FVec Ideal S256 .f32 := shapeCast S256 v4 shapeCasts_S1x256_S256
  have v6 : FVec Ideal S256 .bf16 := truncf .bf16 v5 bitsLt_bf16_f32
  have v22 : FVec Ideal S16x256 .f32 := shapeCast S16x256 v21 shapeCasts_S1x16x256_S16x256
  have v23 : FVec Ideal S16x256 .bf16 := truncf .bf16 v22 bitsLt_bf16_f32
  have v26 : FVec Ideal S16x128 .f32 := shapeCast S16x128 v25 shapeCasts_S1x16x128_S16x128
  have v27 : FVec Ideal S16x128 .bf16 := truncf .bf16 v26 bitsLt_bf16_f32
  have v28 : FVec Ideal S16x1x256 .bf16 := shapeCast S16x1x256 v23 shapeCasts_S16x256_S16x1x256
  have v29 : FVec Ideal S1x128x256 .bf16 := shapeCast S1x128x256 v2 shapeCasts_S128x256_S1x128x256
  have v30 : FVec Ideal S16x128x256 .bf16 := broadcastTo S16x128x256 v28 broadcasts_S16x1x256_S16x128x256
  have v31 : FVec Ideal S16x128x256 .bf16 := broadcastTo S16x128x256 v29 broadcasts_S1x128x256_S16x128x256
  have v32 : FVec Ideal S16x128x256 .bf16 := addf v30 v31
  have v33 : FVec Ideal S16x128x1 .bf16 := shapeCast S16x128x1 v27 shapeCasts_S16x128_S16x128x1
  have v34 : FVec Ideal S1x1x256 .bf16 := shapeCast S1x1x256 v6 shapeCasts_S256_S1x1x256
  have v35 : FVec Ideal S16x128x256 .bf16 := broadcastTo S16x128x256 v33 broadcasts_S16x128x1_S16x128x256
  have v36 : FVec Ideal S16x128x256 .bf16 := broadcastTo S16x128x256 v34 broadcasts_S1x1x256_S16x128x256
  have v37 : FVec Ideal S16x128x256 .bf16 := mulf v35 v36
  have v38 : FVec Ideal S16x128x256 .bf16 := addf v32 v37
  have cst : Ideal .bf16 := Scalar.ofBits .bf16 0x0000#16
  have v39 : FVec Ideal S16x128x256 .bf16 := broadcast S16x128x256 cst
  maximumf v38 v39

/-- At pair (r, q) and unit h: the clamp of row r of the first projection plus row q of the second plus the pair's prior
    times the weight row. -/
theorem firstLayer_apply (v0 : Vec Ideal S1x128x256 .f32) (v3 : Vec Ideal S1x256 .f32) (v21 : Vec Ideal S1x16x256 .f32)
    (v25 : Vec Ideal S1x16x128 .f32) (r : Fin 16) (q : Fin 128) (h : Fin 256) :
    firstLayer v0 v3 v21 v25 (ix3 r q h)
      = max ((v21 (ix3 (0 : Fin 1) r h) + v0 (ix3 (0 : Fin 1) q h)) + v25 (ix3 (0 : Fin 1) r q) * v3 (ix2 (0 : Fin 1) h)) 0 := by
  unfold firstLayer
  simp only [maximumf_apply, addf_apply, mulf_apply, truncf_apply, broadcast_apply,
    broadcastTo_a1c_apply, broadcastTo_1bc_apply, broadcastTo_ab1_apply, broadcastTo_11c_apply,
    shapeCast_ab_a1b_apply, shapeCast_ab_ab1_apply, shapeCast_a_11a_apply, shapeCast_1ab_ab_apply, shapeCast_ab_1ab_apply,
    shapeCast_1a_a_apply, shapeCast_self]
  show max _ (Ideal.ofBits .bf16 0x0000#16) = _
  rw [zero_bf16]

/-- The second hidden layer of the chunk's pairs, the pairs numbered as 2048 rows. -/
def secondLayer (H : FVec Ideal S16x128x256 .bf16) (v7 : Vec Ideal S256x128 .f32) (v9 : Vec Ideal S1x128 .f32) :
    FVec Ideal S2048x128 .f32 :=
  have v8 : FVec Ideal S256x128 .bf16 := truncf .bf16 v7 bitsLt_bf16_f32
  have v10 : FVec Ideal S1x128 .f32 := shapeCast S1x128 v9 shapeCasts_S1x128_S1x128
  have v11 : FVec Ideal S128 .f32 := shapeCast S128 v10 shapeCasts_S1x128_S128
  have v41 : FVec Ideal S2048x256 .bf16 := shapeCast S2048x256 H shapeCasts_S16x128x256_S2048x256
  have cst_17 : FVec Ideal S2048x128 .f32 := constant S2048x128 .f32 0x00000000#32
  have v42 : FVec Ideal S2048x128 .f32 := matmul dot_S2048x256_S256x128_S2048x128_1_0_0_1_n_n none v41 v8 cst_17
  have v43 : FVec Ideal S1x128 .f32 := shapeCast S1x128 v11 shapeCasts_S128_S1x128
  have v44 : FVec Ideal S2048x128 .f32 := broadcastTo S2048x128 v43 broadcasts_S1x128_S2048x128
  have v45 : FVec Ideal S2048x128 .f32 := addf v42 v44
  have cst_18 : Ideal .f32 := Scalar.ofBits .f32 0x00000000#32
  have v46 : FVec Ideal S2048x128 .f32 := broadcast S2048x128 cst_18
  maximumf v45 v46

/-- At row 128·r + q and unit n: the clamp of the first hidden row of pair (r, q) times column n of the weight, plus
    the bias. -/
theorem secondLayer_apply (H : FVec Ideal S16x128x256 .bf16) (v7 : Vec Ideal S256x128 .f32) (v9 : Vec Ideal S1x128 .f32)
    (r : Fin 16) (q : Fin 128) (R : Fin 2048) (hR : R.val = r.val * 128 + q.val) (n : Fin 128) :
    secondLayer H v7 v9 (ix2 R n)
      = max ((∑ h : Fin 256, H (ix3 r q h) * v7 (ix2 h n)) + v9 (ix2 (0 : Fin 1) n)) 0 := by
  unfold secondLayer
  show max ((FloatOps.matmul dot_S2048x256_S256x128_S2048x128_1_0_0_1_n_n none
        (shapeCast S2048x256 H shapeCasts_S16x128x256_S2048x256) (truncf .bf16 v7 bitsLt_bf16_f32)
        (constant S2048x128 .f32 0x00000000#32) (ix2 R n))
      + broadcastTo S2048x128 (shapeCast S1x128 (shapeCast S128 (shapeCast S1x128 v9 shapeCasts_S1x128_S1x128)
          shapeCasts_S1x128_S128) shapeCasts_S128_S1x128) broadcasts_S1x128_S2048x128 (ix2 R n))
      (Ideal.ofBits .f32 0x00000000#32) = _
  rw [Ideal.ofBits_zero_f32]
  have e1 := Cert.LibPlainDot.matmul_zero_apply (M := 2048) (K := 256) (N := 128)
    dot_S2048x256_S256x128_S2048x128_1_0_0_1_n_n_wf none
    (shapeCast S2048x256 H shapeCasts_S16x128x256_S2048x256) (truncf .bf16 v7 bitsLt_bf16_f32) R n
  have e2 : ∀ h : Fin 256, shapeCast S2048x256 H shapeCasts_S16x128x256_S2048x256 (ix2 R h) = H (ix3 r q h) := fun h =>
    shapeCast_abc_rows_apply H shapeCasts_S16x128x256_S2048x256 r q h R hR
  have e3 : broadcastTo S2048x128 (shapeCast S1x128 (shapeCast S128 (shapeCast S1x128 v9 shapeCasts_S1x128_S1x128)
      shapeCasts_S1x128_S128) shapeCasts_S128_S1x128) broadcasts_S1x128_S2048x128 (ix2 R n) = v9 (ix2 (0 : Fin 1) n) := by
    rw [broadcastTo_1b_ab_apply, shapeCast_a_1a_apply, shapeCast_1a_a_apply, shapeCast_self]
  refine congrArg (fun z => max z 0) ?_
  refine (congrArg₂ (· + ·) (e1.trans (Finset.sum_congr rfl fun h _ => ?_)) e3)
  rw [e2 h]
  rfl

/-- The last layer: the weighted sum of each pair's second hidden row, plus the last bias, as a 1 × 16 × 128 block. -/
def lastLayer (B : FVec Ideal S2048x128 .f32) (v12 : Vec Ideal S128x1 .f32) (v14 : Vec Ideal S1x1 .f32) :
    FVec Ideal S1x16x128 .f32 :=
  have v13 : FVec Ideal S128 .f32 := shapeCast S128 v12 shapeCasts_S128x1_S128
  have v15 : FVec Ideal S1x1 .f32 := shapeCast S1x1 v14 shapeCasts_S1x1_S1x1
  have v16 : Ideal .f32 := extractAt ![0, 0] v15 inpos_S1x1_p0_0
  have v48 : FVec Ideal S16x128x128 .f32 := shapeCast S16x128x128 B shapeCasts_S2048x128_S16x128x128
  have v49 : FVec Ideal S1x1x128 .f32 := shapeCast S1x1x128 v13 shapeCasts_S128_S1x1x128
  have v50 : FVec Ideal S16x128x128 .f32 := broadcastTo S16x128x128 v49 broadcasts_S1x1x128_S16x128x128
  have v51 : FVec Ideal S16x128x128 .f32 := mulf v48 v50
  have v52 : FVec Ideal S16x128 .f32 := multiReduction .add [2] S16x128 v51 0x00000000#32 reduces_S16x128x128_S16x128 (.inl rfl) rfl
  have v53 : FVec Ideal S16x128 .f32 := broadcast S16x128 v16
  have v54 : FVec Ideal S16x128 .f32 := addf v52 v53
  have v58 : FVec Ideal S1x16x128 .f32 := shapeCast S1x16x128 v54 shapeCasts_S16x128_S1x16x128
  v58

/-- At pair (r, q): the sum over the units n of row 128·r + q of the second layer times W₃(n, 0), plus b₃. -/
theorem lastLayer_apply (B : FVec Ideal S2048x128 .f32) (v12 : Vec Ideal S128x1 .f32) (v14 : Vec Ideal S1x1 .f32)
    (u : Fin 1) (r : Fin 16) (q : Fin 128) (R : Fin 2048) (hR : R.val = r.val * 128 + q.val) :
    lastLayer B v12 v14 (ix3 u r q)
      = (∑ n : Fin 128, B (ix2 R n) * v12 (ix2 n (0 : Fin 1))) + v14 (ix2 (0 : Fin 1) (0 : Fin 1)) := by
  unfold lastLayer
  rw [shapeCast_ab_1ab_apply, addf_apply, broadcast_apply]
  have e0 : extractAt ![0, 0] (shapeCast S1x1 v14 shapeCasts_S1x1_S1x1) inpos_S1x1_p0_0 = v14 (ix2 (0 : Fin 1) (0 : Fin 1)) := by
    rw [shapeCast_self]
    unfold extractAt
    exact congrArg v14 (funext fun a => match a with | ⟨0, _⟩ => rfl | ⟨1, _⟩ => rfl)
  have em := Ideal.multiReduction_add_single (φ := .f32)
    (mulf (shapeCast S16x128x128 B shapeCasts_S2048x128_S16x128x128)
      (broadcastTo S16x128x128 (shapeCast S1x1x128 (shapeCast S128 v12 shapeCasts_S128x1_S128) shapeCasts_S128_S1x1x128)
        broadcasts_S1x1x128_S16x128x128))
    0x00000000#32 reduces_S16x128x128_S16x128 (.inl rfl) rfl (ix2 r q)
  refine congrArg₂ (· + ·) (em.trans ?_) e0
  show ∑ n : Fin 128, _ = _
  refine Finset.sum_congr rfl fun n _ => ?_
  have el : reduces_S16x128x128_S16x128.lift (ix2 r q) n = ix3 r q n :=
    funext fun a => match a with | ⟨0, _⟩ => rfl | ⟨1, _⟩ => rfl | ⟨2, _⟩ => rfl
  rw [el, mulf_apply, shapeCast_rows_abc_apply B shapeCasts_S2048x128_S16x128x128 r q n R hR,
    broadcastTo_11c_apply, shapeCast_a_11a_apply, shapeCast_a1_a_apply]

/-- The trip's stored value is the three layers composed. -/
theorem pay_eq (v0 : Vec Ideal S1x128x256 .f32) (v3 : Vec Ideal S1x256 .f32) (v7 : Vec Ideal S256x128 .f32)
    (v9 : Vec Ideal S1x128 .f32) (v12 : Vec Ideal S128x1 .f32) (v14 : Vec Ideal S1x1 .f32)
    (v21 : Vec Ideal S1x16x256 .f32) (v25 : Vec Ideal S1x16x128 .f32) :
    k0_pay1 (F := Ideal) v0 v3 v7 v9 v12 v14 v21 v25 = lastLayer (secondLayer (firstLayer v0 v3 v21 v25) v7 v9) v12 v14 := rfl

/-- THE TRIP'S STORED VALUE at pair (r, q) of the chunk: the pair's score, with the first bias already inside the
    first projection's row. -/
theorem pay_apply (v0 : Vec Ideal S1x128x256 .f32) (v3 : Vec Ideal S1x256 .f32) (v7 : Vec Ideal S256x128 .f32)
    (v9 : Vec Ideal S1x128 .f32) (v12 : Vec Ideal S128x1 .f32) (v14 : Vec Ideal S1x1 .f32)
    (v21 : Vec Ideal S1x16x256 .f32) (v25 : Vec Ideal S1x16x128 .f32) (u : Fin 1) (r : Fin 16) (q : Fin 128) :
    k0_pay1 (F := Ideal) v0 v3 v7 v9 v12 v14 v21 v25 (ix3 u r q)
      = score (fun h => max ((v21 (ix3 (0 : Fin 1) r h) + v0 (ix3 (0 : Fin 1) q h)) + v25 (ix3 (0 : Fin 1) r q) * v3 (ix2 (0 : Fin 1) h)) 0)
          (fun h n => v7 (ix2 h n)) (fun n => v9 (ix2 (0 : Fin 1) n)) (fun n => v12 (ix2 n (0 : Fin 1)))
          (v14 (ix2 (0 : Fin 1) (0 : Fin 1))) := by
  have hq := q.isLt
  have hr := r.isLt
  rw [pay_eq, lastLayer_apply _ _ _ u r q ⟨r.val * 128 + q.val, by omega⟩ rfl]
  unfold score
  refine congrArg (· + v14 (ix2 (0 : Fin 1) (0 : Fin 1))) (Finset.sum_congr rfl fun n _ => ?_)
  rw [secondLayer_apply _ _ _ r q ⟨r.val * 128 + q.val, by omega⟩ rfl n]
  simp only [firstLayer_apply]

end Cert.ChunkPayload

end
-- ==== Proof.TileScores.lean ====
/-
  What the kernel's body leaves in its 128 × 128 output tile.

  The body's loop makes eight trips; trip k stores the scores of rows 16k … 16k + 15 of the tile, computed from rows
  16k … 16k + 15 of the first projection's block and of the priors' block and from the whole of the other blocks. The
  eight stored rectangles tile the block, and every one of them is the restriction of ONE function of the block index —
  the score of the pair (row, column) —, so what the stores leave is that function, in whatever order they were made.
-/
import proofs.«114371_j30897994727574_2_alg».proof.Proof.Gen.KernelIdeal.Frame
import proofs.«114371_j30897994727574_2_alg».proof.Proof.ChunkPayload

set_option maxRecDepth 16384

noncomputable section

namespace Cert.TileScores

open Cert.KernelIdeal Cert.KernelIdeal.Gen Idealize.ShloMosaic Idealize.ShloMosaic.TcCoe Idealize.SL.Sem
open Idealize.ShloMosaic.ValueIdx Cert.PairScore Cert.ChunkPayload

/-- The score of the pair (row i, column j) of a tile, from the eight blocks the body is called with: rows of the two
    projections' blocks (the first with the bias inside), the prior at (i, j), the weight row, and the two dense layers. -/
def tileAt (x0 : Vec Ideal S1x128x256 .f32) (x1 : Vec Ideal S1x128x256 .f32) (x2 : Vec Ideal S1x128x128 .f32)
    (x3 : Vec Ideal S1x256 .f32) (x4 : Vec Ideal S256x128 .f32) (x5 : Vec Ideal S1x128 .f32) (x6 : Vec Ideal S128x1 .f32)
    (x7 : Vec Ideal S1x1 .f32) (i j : Fin 128) : EReal :=
  score (fun h => max ((x0 (ix3 (0 : Fin 1) i h) + x1 (ix3 (0 : Fin 1) j h)) + x2 (ix3 (0 : Fin 1) i j) * x3 (ix2 (0 : Fin 1) h)) 0)
    (fun h n => x4 (ix2 h n)) (fun n => x5 (ix2 (0 : Fin 1) n)) (fun n => x6 (ix2 n (0 : Fin 1)))
    (x7 (ix2 (0 : Fin 1) (0 : Fin 1)))

/-- The whole tile as a function of the block index. -/
def tile (x0 : Vec Ideal S1x128x256 .f32) (x1 : Vec Ideal S1x128x256 .f32) (x2 : Vec Ideal S1x128x128 .f32)
    (x3 : Vec Ideal S1x256 .f32) (x4 : Vec Ideal S256x128 .f32) (x5 : Vec Ideal S1x128 .f32) (x6 : Vec Ideal S128x1 .f32)
    (x7 : Vec Ideal S1x1 .f32) : Vec Ideal S1x128x128 .f32 :=
  fun y => tileAt x0 x1 x2 x3 x4 x5 x6 x7 (y 1) (y 2)

section Pieces

variable {F : FTy → Type} [FloatOps F]
variable (𝒱 : Variants) (bd : Option 𝒱.V) (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x128x128 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S1x128x128 .f32) (harg11 : arg11.IsWhole)
  (v0 : Vec F S1x128x256 .f32) (v3 : Vec F S1x256 .f32) (v7 : Vec F S256x128 .f32) (v9 : Vec F S1x128 .f32) (v12 : Vec F S128x1 .f32) (v14 : Vec F S1x1 .f32)
  (X_arg3 : BufTy.Contents (Elt F) arg3.view.ty) (X_arg5 : BufTy.Contents (Elt F) arg5.view.ty)

/-- Trip k stores ONE piece: through rows 16k … 16k + 15 of the tile, the trip's value of the rows it loaded. -/
theorem trip_piece (k : Fin k0_t1_loop.trips) :
    tripL_k0_t1 (F := F) 𝒱 c bd i arg3 harg3 arg4 harg4 arg5 harg5 arg6 harg6 arg7 harg7 arg8 harg8 arg9 harg9 arg10 harg10 arg11 harg11 v0 v3 v7 v9 v12 v14 X_arg3 X_arg5 k
      = [⟨Rect.unit (s := S1x128x128) (k0_off2 k) S1x16x128.size (k0_off2_inb k),
          k0_pay1 v0 v3 v7 v9 v12 v14
            (View.readAt (Elt F) arg3.view (Rect.unit (s := S1x128x256) (k0_off1 k) S1x16x256.size (k0_off1_inb k)).toLoadRect X_arg3)
            (View.readAt (Elt F) arg5.view (Rect.unit (s := S1x128x128) (k0_off2 k) S1x16x128.size (k0_off2_inb k)).toLoadRect X_arg5)⟩] := by
  unfold tripL_k0_t1 trip_k0_t1
  rfl

/-- Every piece stored by the trips before the n-th is some trip's piece. -/
theorem mem_trips (pc : View.Piece (Elt F) S1x128x128 .f32) : ∀ n : ℕ,
    pc ∈ pb_k0_t1 (F := F) 𝒱 c bd i arg3 harg3 arg4 harg4 arg5 harg5 arg6 harg6 arg7 harg7 arg8 harg8 arg9 harg9 arg10 harg10 arg11 harg11 v0 v3 v7 v9 v12 v14 X_arg3 X_arg5 n →
    ∃ k : Fin k0_t1_loop.trips, pc ∈ tripL_k0_t1 (F := F) 𝒱 c bd i arg3 harg3 arg4 harg4 arg5 harg5 arg6 harg6 arg7 harg7 arg8 harg8 arg9 harg9 arg10 harg10 arg11 harg11 v0 v3 v7 v9 v12 v14 X_arg3 X_arg5 k
  | 0, h => by rw [pb_k0_t1.eq_1] at h; exact absurd h List.not_mem_nil
  | n + 1, h => by
    rw [pb_k0_t1.eq_2] at h
    unfold pb_k0_t1Step at h
    by_cases hn : n < k0_t1_loop.trips
    · rw [dif_pos hn] at h
      rcases List.mem_append.mp h with h | h
      · exact ⟨⟨n, hn⟩, h⟩
      · exact mem_trips pc n h
    · rw [dif_neg hn] at h
      exact mem_trips pc n h

end Pieces

/-- The rectangles' leading zeros, as the whole-block loads spell them. -/
theorem hz3 : (![0, 0, 0] : Fin 3 → Nat) = fun _ => 0 := funext fun a => by fin_cases a <;> rfl
theorem hz2 : (![0, 0] : Fin 2 → Nat) = fun _ => 0 := funext fun a => by fin_cases a <;> rfl

section Tile

variable (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x128x128 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S1x128x128 .f32) (harg11 : arg11.IsWhole)
  (x0 : Vec Ideal S1x128x256 .f32) (x1 : Vec Ideal S1x128x256 .f32) (x2 : Vec Ideal S1x128x128 .f32) (x3 : Vec Ideal S1x256 .f32) (x4 : Vec Ideal S256x128 .f32) (x5 : Vec Ideal S1x128 .f32) (x6 : Vec Ideal S128x1 .f32) (x7 : Vec Ideal S1x1 .f32)

/-- Trip k's piece, at its index x, is the tile's function at the block index under x: the rows the trip loaded are rows
    16k + (x 1) of the blocks. -/
theorem piece_tile (k : Fin k0_t1_loop.trips) (x : S1x16x128.Idx) :
    k0_pay1 (F := Ideal) x1 x3 x4 x5 x6 x7
        (View.readAt (Elt Ideal) arg3.view (Rect.unit (s := S1x128x256) (k0_off1 k) S1x16x256.size (k0_off1_inb k)).toLoadRect (harg3.unread x0))
        (View.readAt (Elt Ideal) arg5.view (Rect.unit (s := S1x128x128) (k0_off2 k) S1x16x128.size (k0_off2_inb k)).toLoadRect (harg5.unread x2)) x
      = tile x0 x1 x2 x3 x4 x5 x6 x7 ((Rect.unit (s := S1x128x128) (k0_off2 k) S1x16x128.size (k0_off2_inb k)).emb x) := by
  have hk : k.val < 8 := Nat.lt_of_lt_of_le k.isLt k0_t1_abs.2.1
  obtain ⟨u, r, q, rfl⟩ : ∃ (u : Fin 1) (r : Fin 16) (q : Fin 128), x = ix3 u r q := ⟨x 0, x 1, x 2, eq_ix3 x⟩
  have hr := r.isLt
  have hq := q.isLt
  have o1 : k0_off1 k 1 = 16 * k.val := congrFun (k0_off1_eq k) 1
  have o2 : k0_off2 k 1 = 16 * k.val := congrFun (k0_off2_eq k) 1
  have o10 : k0_off1 k 0 = 0 := congrFun (k0_off1_eq k) 0
  have o12 : k0_off1 k 2 = 0 := congrFun (k0_off1_eq k) 2
  have o20 : k0_off2 k 0 = 0 := congrFun (k0_off2_eq k) 0
  have o22 : k0_off2 k 2 = 0 := congrFun (k0_off2_eq k) 2
  rw [pay_apply]
  unfold tile tileAt
  rw [View.readAt_eq_ld, View.readAt_eq_ld, harg3.read_unread, harg5.read_unread]
  -- the row of the tile under the piece's row r, and its column
  have ei : ((Rect.unit (s := S1x128x128) (k0_off2 k) S1x16x128.size (k0_off2_inb k)).emb (ix3 u r q) 1 : Fin 128)
      = (⟨16 * k.val + r.val, by omega⟩ : Fin 128) := Fin.ext (by
    show k0_off2 k 1 + 1 * r.val = 16 * k.val + r.val
    rw [o2, Nat.one_mul])
  have ej : ((Rect.unit (s := S1x128x128) (k0_off2 k) S1x16x128.size (k0_off2_inb k)).emb (ix3 u r q) 2 : Fin 128) = q := Fin.ext (by
    show k0_off2 k 2 + 1 * q.val = q.val
    rw [o22, Nat.one_mul, Nat.zero_add])
  rw [ei, ej]
  -- the rows the trip loaded
  have e0 : ∀ h : Fin 256, View.ld x0 (Rect.unit (s := S1x128x256) (k0_off1 k) S1x16x256.size (k0_off1_inb k)) (ix3 (0 : Fin 1) r h)
      = x0 (ix3 (0 : Fin 1) (⟨16 * k.val + r.val, by omega⟩ : Fin 128) h) := fun h =>
    congrArg x0 (funext fun a => match a with
      | ⟨0, _⟩ => Fin.ext (by show k0_off1 k 0 + 1 * 0 = 0; rw [o10])
      | ⟨1, _⟩ => Fin.ext (by show k0_off1 k 1 + 1 * r.val = 16 * k.val + r.val; rw [o1, Nat.one_mul])
      | ⟨2, _⟩ => Fin.ext (by show k0_off1 k 2 + 1 * h.val = h.val; rw [o12, Nat.one_mul, Nat.zero_add]))
  have e2 : View.ld x2 (Rect.unit (s := S1x128x128) (k0_off2 k) S1x16x128.size (k0_off2_inb k)) (ix3 (0 : Fin 1) r q)
      = x2 (ix3 (0 : Fin 1) (⟨16 * k.val + r.val, by omega⟩ : Fin 128) q) :=
    congrArg x2 (funext fun a => match a with
      | ⟨0, _⟩ => Fin.ext (by show k0_off2 k 0 + 1 * 0 = 0; rw [o20])
      | ⟨1, _⟩ => Fin.ext (by show k0_off2 k 1 + 1 * r.val = 16 * k.val + r.val; rw [o2, Nat.one_mul])
      | ⟨2, _⟩ => Fin.ext (by show k0_off2 k 2 + 1 * q.val = q.val; rw [o22, Nat.one_mul, Nat.zero_add]))
  simp only [e0, e2]

/-- The pieces the body's run found are those of the eight trips. -/
theorem run_pieces :
    (kernelRun0_A (F := Ideal) c i arg3 harg3 arg4 harg4 arg5 harg5 arg6 harg6 arg7 harg7 arg8 harg8 arg9 harg9 arg10 harg10 arg11 harg11 x0 x1 x2 x3 x4 x5 x6 x7).1
      = pb_k0_t1 (F := Ideal) Variants.none c none i arg3 harg3 arg4 harg4 arg5 harg5 arg6 harg6 arg7 harg7 arg8 harg8 arg9 harg9 arg10 harg10 arg11 harg11
          (View.readAt (Elt Ideal) arg4.view (Rect.unit ![0, 0, 0] S1x128x256.size inb_S1x128x256_S1x128x256_0_0_0).toLoadRect (harg4.unread x1))
          (View.readAt (Elt Ideal) arg6.view (Rect.unit ![0, 0] S1x256.size inb_S1x256_S1x256_0_0).toLoadRect (harg6.unread x3))
          (View.readAt (Elt Ideal) arg7.view (Rect.unit ![0, 0] S256x128.size inb_S256x128_S256x128_0_0).toLoadRect (harg7.unread x4))
          (View.readAt (Elt Ideal) arg8.view (Rect.unit ![0, 0] S1x128.size inb_S1x128_S1x128_0_0).toLoadRect (harg8.unread x5))
          (View.readAt (Elt Ideal) arg9.view (Rect.unit ![0, 0] S128x1.size inb_S128x1_S128x1_0_0).toLoadRect (harg9.unread x6))
          (View.readAt (Elt Ideal) arg10.view (Rect.unit ![0, 0] S1x1.size inb_S1x1_S1x1_0_0).toLoadRect (harg10.unread x7))
          (harg3.unread x0) (harg5.unread x2) (Scf.trips (0#32) (Scalar.addi 0#32 8#32) 1#32) := by
  unfold kernelRun0_A
  rfl

/-- WHAT THE BODY LEAVES in the output block: the tile of scores of the blocks it was called with. -/
theorem out_tile :
    out0_A_8 (F := Ideal) c i arg3 harg3 arg4 harg4 arg5 harg5 arg6 harg6 arg7 harg7 arg8 harg8 arg9 harg9 arg10 harg10 arg11 harg11 x0 x1 x2 x3 x4 x5 x6 x7 = tile x0 x1 x2 x3 x4 x5 x6 x7 := by
  unfold out0_A_8
  rw [View.read_writes_eq_canon _ _ _ (cover0_A_8 (F := Ideal) c i arg3 harg3 arg4 harg4 arg5 harg5 arg6 harg6 arg7 harg7 arg8 harg8 arg9 harg9 arg10 harg10 arg11 harg11 x0 x1 x2 x3 x4 x5 x6 x7)]
  funext y
  refine View.canon_apply_of_pieces (tile x0 x1 x2 x3 x4 x5 x6 x7) _ ?_ y (cover0_A_8 (F := Ideal) c i arg3 harg3 arg4 harg4 arg5 harg5 arg6 harg6 arg7 harg7 arg8 harg8 arg9 harg9 arg10 harg10 arg11 harg11 x0 x1 x2 x3 x4 x5 x6 x7 y)
  intro pc hpc x
  rw [run_pieces] at hpc
  obtain ⟨k, hk⟩ := mem_trips _ _ c i arg3 harg3 arg4 harg4 arg5 harg5 arg6 harg6 arg7 harg7 arg8 harg8 arg9 harg9 arg10 harg10 arg11 harg11 _ _ _ _ _ _ _ _ pc _ hpc
  rw [trip_piece] at hk
  obtain rfl := List.mem_singleton.mp hk
  have w1 : View.readAt (Elt Ideal) arg4.view (Rect.unit ![0, 0, 0] S1x128x256.size inb_S1x128x256_S1x128x256_0_0_0).toLoadRect (harg4.unread x1) = x1 := by
    rw [View.readAt_eq_ld, harg4.read_unread, View.ld_unit_zero (S := S1x128x256) hz3]
  have w3 : View.readAt (Elt Ideal) arg6.view (Rect.unit ![0, 0] S1x256.size inb_S1x256_S1x256_0_0).toLoadRect (harg6.unread x3) = x3 := by
    rw [View.readAt_eq_ld, harg6.read_unread, View.ld_unit_zero (S := S1x256) hz2]
  have w4 : View.readAt (Elt Ideal) arg7.view (Rect.unit ![0, 0] S256x128.size inb_S256x128_S256x128_0_0).toLoadRect (harg7.unread x4) = x4 := by
    rw [View.readAt_eq_ld, harg7.read_unread, View.ld_unit_zero (S := S256x128) hz2]
  have w5 : View.readAt (Elt Ideal) arg8.view (Rect.unit ![0, 0] S1x128.size inb_S1x128_S1x128_0_0).toLoadRect (harg8.unread x5) = x5 := by
    rw [View.readAt_eq_ld, harg8.read_unread, View.ld_unit_zero (S := S1x128) hz2]
  have w6 : View.readAt (Elt Ideal) arg9.view (Rect.unit ![0, 0] S128x1.size inb_S128x1_S128x1_0_0).toLoadRect (harg9.unread x6) = x6 := by
    rw [View.readAt_eq_ld, harg9.read_unread, View.ld_unit_zero (S := S128x1) hz2]
  have w7 : View.readAt (Elt Ideal) arg10.view (Rect.unit ![0, 0] S1x1.size inb_S1x1_S1x1_0_0).toLoadRect (harg10.unread x7) = x7 := by
    rw [View.readAt_eq_ld, harg10.read_unread, View.ld_unit_zero (S := S1x1) hz2]
  rw [w1, w3, w4, w5, w6, w7]
  exact piece_tile arg3 harg3 arg5 harg5 x0 x1 x2 x3 x4 x5 x6 x7 k x

end Tile

end Cert.TileScores

end
-- ==== Proof.KernelScore.lean ====
/-
  The kernel's result array, as one function of the eight arguments.

  Before the region the host forms the two projections of the node features (each a 1024 × 256 by 256 × 256 product of the
  flattened features with a block of rows of W₁, reshaped back), adds the first bias to the first of them, and reshapes the
  last row of W₁ and the two remaining biases into rows. Grid point (b, I, J) is called with rows 128·I … of the first
  projection, rows 128·J … of the second, the 128 × 128 tile (I, J) of the priors and the small operands whole, and writes
  tile (I, J) of batch b of the result. By the tile's closed form every point writes the restriction of ONE function of
  the arrays the region finds; the 32 tiles cover the result; so the result is that function — and, the first bias moved
  from the first projection to the end of the sum, it is the pairwise scorer of the arguments.
-/
import proofs.«114371_j30897994727574_2_alg».proof.Proof.Gen.KernelIdeal.Value
import proofs.«114371_j30897994727574_2_alg».proof.Proof.TileScores
import Idealize.ShloMosaic.Lib.StableHlo.Run

set_option maxRecDepth 16384

noncomputable section

namespace Cert.KernelScore

open Cert.KernelIdeal Cert.KernelIdeal.Gen Idealize.ShloMosaic Idealize.ShloMosaic.TcCoe Idealize.SL.Sem
open Idealize.ShloMosaic.Pipeline (Dat)
open Idealize.ShloMosaic.ValueIdx Cert.PairScore Cert.Rank3Layout Cert.TileScores

/-! ## The result from the arrays the region finds -/

/-- The score of every pair from the eight arrays the windows stage: the two projections (the first with the bias inside),
    the priors, the weight row, and the two dense layers. -/
def fromWindows (A0 A1 : FVec Ideal S2x512x256 .f32) (A2 : FVec Ideal S2x512x512 .f32) (A3 : FVec Ideal S1x256 .f32)
    (A4 : FVec Ideal S256x128 .f32) (A5 : FVec Ideal S1x128 .f32) (A6 : FVec Ideal S128x1 .f32) (A7 : FVec Ideal S1x1 .f32) :
    FVec Ideal S2x512x512 .f32 := fun i =>
  score (fun h => max ((A0 (ix3 (i 0) (i 1) h) + A1 (ix3 (i 0) (i 2) h)) + A2 (ix3 (i 0) (i 1) (i 2)) * A3 (ix2 (0 : Fin 1) h)) 0)
    (fun h n => A4 (ix2 h n)) (fun n => A5 (ix2 (0 : Fin 1) n)) (fun n => A6 (ix2 n (0 : Fin 1)))
    (A7 (ix2 (0 : Fin 1) (0 : Fin 1)))

/-- A tile of blocks is the result's function at the array index under it, once each block reads its array there. -/
theorem tile_eq_of_reads (x0 x1 : Vec Ideal S1x128x256 .f32) (x2 : Vec Ideal S1x128x128 .f32) (x3 : Vec Ideal S1x256 .f32)
    (x4 : Vec Ideal S256x128 .f32) (x5 : Vec Ideal S1x128 .f32) (x6 : Vec Ideal S128x1 .f32) (x7 : Vec Ideal S1x1 .f32)
    (A0 A1 : FVec Ideal S2x512x256 .f32) (A2 : FVec Ideal S2x512x512 .f32) (A3 : FVec Ideal S1x256 .f32)
    (A4 : FVec Ideal S256x128 .f32) (A5 : FVec Ideal S1x128 .f32) (A6 : FVec Ideal S128x1 .f32) (A7 : FVec Ideal S1x1 .f32)
    (y : S1x128x128.Idx) (i : S2x512x512.Idx)
    (h0 : ∀ h : Fin 256, x0 (ix3 (0 : Fin 1) (y 1) h) = A0 (ix3 (i 0) (i 1) h))
    (h1 : ∀ h : Fin 256, x1 (ix3 (0 : Fin 1) (y 2) h) = A1 (ix3 (i 0) (i 2) h))
    (h2 : x2 (ix3 (0 : Fin 1) (y 1) (y 2)) = A2 (ix3 (i 0) (i 1) (i 2)))
    (h3 : ∀ h : Fin 256, x3 (ix2 (0 : Fin 1) h) = A3 (ix2 (0 : Fin 1) h))
    (h4 : ∀ (h : Fin 256) (n : Fin 128), x4 (ix2 h n) = A4 (ix2 h n))
    (h5 : ∀ n : Fin 128, x5 (ix2 (0 : Fin 1) n) = A5 (ix2 (0 : Fin 1) n))
    (h6 : ∀ n : Fin 128, x6 (ix2 n (0 : Fin 1)) = A6 (ix2 n (0 : Fin 1)))
    (h7 : x7 (ix2 (0 : Fin 1) (0 : Fin 1)) = A7 (ix2 (0 : Fin 1) (0 : Fin 1))) :
    tile x0 x1 x2 x3 x4 x5 x6 x7 y = fromWindows A0 A1 A2 A3 A4 A5 A6 A7 i := by
  unfold tile tileAt fromWindows
  simp only [h0, h1, h2, h3, h4, h5, h6, h7]

/-! ## The arrays the host forms before the region -/

/-- The node features contracted with rows o … o + 255 of W₁, as the host computes it: flatten, multiply, reshape. -/
def projRows (o : ℕ) (hs : S513x256.Slices ![o, 0] S256x256) (a0 : FVec Ideal S2x512x256 .f32) (a2 : FVec Ideal S513x256 .f32) :
    FVec Ideal S2x512x256 .f32 :=
  shapeCast S2x512x256
    (Host.dotGeneral (F := Ideal) dot_S1024x256_S256x256_S1024x256_1_0_0_1_n_n none
      (shapeCast S1024x256 a0 shapeCasts_S2x512x256_S1024x256) (extractStridedSlice S256x256 ![o, 0] a2 hs))
    shapeCasts_S1024x256_S2x512x256

theorem projRows_apply (o : ℕ) (ho : o + 256 ≤ 513) (hs : S513x256.Slices ![o, 0] S256x256) (a0 : FVec Ideal S2x512x256 .f32)
    (a2 : FVec Ideal S513x256 .f32) (b : Fin 2) (p : Fin 512) (h : Fin 256) :
    projRows o hs a0 a2 (ix3 b p h) = proj o ho a0 a2 b p h := by
  have hb := b.isLt
  have hp := p.isLt
  unfold projRows proj
  rw [shapeCast_rows_abc_apply _ shapeCasts_S1024x256_S2x512x256 b p h (⟨b.val * 512 + p.val, by omega⟩ : Fin 1024) rfl]
  refine (Cert.LibPlainDot.dotGeneral_apply (M := 1024) (K := 256) (N := 256) dot_S1024x256_S256x256_S1024x256_1_0_0_1_n_n_wf
    none .single (shapeCast S1024x256 a0 shapeCasts_S2x512x256_S1024x256) (extractStridedSlice S256x256 ![o, 0] a2 hs)
    (⟨b.val * 512 + p.val, by omega⟩ : Fin 1024) h).trans ?_
  refine Finset.sum_congr rfl fun k _ => ?_
  rw [shapeCast_abc_rows_apply a0 shapeCasts_S2x512x256_S1024x256 b p k (⟨b.val * 512 + p.val, by omega⟩ : Fin 1024) rfl,
    slice2_axis0_eq]

/-- Window 0's array: the first projection plus the first bias. -/
def firstWithBias (a0 : FVec Ideal S2x512x256 .f32) (a2 : FVec Ideal S513x256 .f32) (a3 : FVec Ideal S256 .f32) :
    FVec Ideal S2x512x256 .f32 :=
  addf (projRows 0 slices_S513x256_S256x256_0_0 a0 a2)
    (broadcastInDim S2x512x256 ![0, 1, 2] bcast_S1x1x256_S2x512x256_0_1_2 (broadcastInDim S1x1x256 ![2] bcast_S256_S1x1x256_2 a3))

theorem firstWithBias_apply (a0 : FVec Ideal S2x512x256 .f32) (a2 : FVec Ideal S513x256 .f32) (a3 : FVec Ideal S256 .f32)
    (b : Fin 2) (p : Fin 512) (h : Fin 256) :
    firstWithBias a0 a2 a3 (ix3 b p h) = proj 0 (by omega) a0 a2 b p h + a3 (ix1 h) := by
  unfold firstWithBias
  rw [addf_apply, projRows_apply 0 (by omega)]
  refine congrArg (proj 0 _ a0 a2 b p h + ·) ?_
  refine (broadcastInDim_apply _ bcast_S1x1x256_S2x512x256_0_1_2 _ (ix3 b p h) (ix3 (0 : Fin 1) (0 : Fin 1) h)
    (fun a => match a with | ⟨0, _⟩ => rfl | ⟨1, _⟩ => rfl | ⟨2, _⟩ => rfl)).trans ?_
  exact broadcastInDim_apply _ bcast_S256_S1x1x256_2 a3 (ix3 (0 : Fin 1) (0 : Fin 1) h) (ix1 h)
    (fun a => match a with | ⟨0, _⟩ => rfl)

/-- Window 3's array: the last row of W₁ as a 1 × 256 row. -/
def lastRow (a2 : FVec Ideal S513x256 .f32) : FVec Ideal S1x256 .f32 :=
  shapeCast S1x256 (shapeCast S256 (extractStridedSlice S1x256 ![512, 0] a2 slices_S513x256_S1x256_512_0) shapeCasts_S1x256_S256)
    shapeCasts_S256_S1x256

theorem lastRow_apply (a2 : FVec Ideal S513x256 .f32) (h : Fin 256) :
    lastRow a2 (ix2 (0 : Fin 1) h) = a2 (ix2 (⟨512, by omega⟩ : Fin 513) h) := by
  unfold lastRow
  rw [shapeCast_a_1a_apply, shapeCast_1a_a_apply, slice2_axis0_eq]
  rfl

/-- THE BRIDGE: the result's function of the host-formed arrays is the pairwise scorer of the arguments — the first bias
    moves from the first projection to the end of the sum. -/
theorem fromWindows_host (a0 : FVec Ideal S2x512x256 .f32) (a1 : FVec Ideal S2x512x512 .f32) (a2 : FVec Ideal S513x256 .f32)
    (a3 : FVec Ideal S256 .f32) (a4 : FVec Ideal S256x128 .f32) (a5 : FVec Ideal S128 .f32) (a6 : FVec Ideal S128x1 .f32)
    (a7 : FVec Ideal S1 .f32) :
    fromWindows (firstWithBias a0 a2 a3) (projRows 256 slices_S513x256_S256x256_256_0 a0 a2) a1 (lastRow a2) a4
        (shapeCast S1x128 a5 shapeCasts_S128_S1x128) a6 (shapeCast S1x1 a7 shapeCasts_S1_S1x1)
      = scores a0 a1 a2 a3 a4 a5 a6 a7 := by
  funext i
  obtain ⟨b, p, q, rfl⟩ : ∃ (b : Fin 2) (p q : Fin 512), i = ix3 b p q := ⟨i 0, i 1, i 2, eq_ix3 i⟩
  unfold fromWindows scores
  show score (fun h => max ((firstWithBias a0 a2 a3 (ix3 b p h) + projRows 256 slices_S513x256_S256x256_256_0 a0 a2 (ix3 b q h))
        + a1 (ix3 b p q) * lastRow a2 (ix2 (0 : Fin 1) h)) 0)
      (fun h n => a4 (ix2 h n)) (fun n => shapeCast S1x128 a5 shapeCasts_S128_S1x128 (ix2 (0 : Fin 1) n)) (fun n => a6 (ix2 n (0 : Fin 1)))
      (shapeCast S1x1 a7 shapeCasts_S1_S1x1 (ix2 (0 : Fin 1) (0 : Fin 1)))
    = score (fun h => hidden (proj 0 (by omega) a0 a2 b p h) (proj 256 (by omega) a0 a2 b q h) (a1 (ix3 b p q))
        (a2 (ix2 (⟨512, by omega⟩ : Fin 513) h)) (a3 (ix1 h)))
      (fun h n => a4 (ix2 h n)) (fun n => a5 (ix1 n)) (fun n => a6 (ix2 n (0 : Fin 1))) (a7 (ix1 (0 : Fin 1)))
  simp only [firstWithBias_apply, projRows_apply 256 (by omega), lastRow_apply, shapeCast_a_1a_apply, bias_first]

/-! ## What a grid point writes back, the cover, and the run -/

variable (m : (ℓ : Loc nD τ sig) → Buf (Elt Ideal) ℓ) (ρ : Dev nD → PrngReg)

/-- The printed index maps over the 32 grid points: window 0 follows the output's batch and row tile, window 1 its batch and
    column tile, window 2 the output itself, the small operands stay at block 0; and the output's tile indices are in range. -/
theorem idx_facts : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_1.index t (0 : Fin 3) = win0_8.index t (0 : Fin 3) ∧ win0_1.index t (1 : Fin 3) = win0_8.index t (2 : Fin 3)
    ∧ win0_1.index t (2 : Fin 3) = 0
    ∧ win0_2.index t (0 : Fin 3) = win0_8.index t (0 : Fin 3) ∧ win0_2.index t (1 : Fin 3) = win0_8.index t (1 : Fin 3)
    ∧ win0_2.index t (2 : Fin 3) = win0_8.index t (2 : Fin 3)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every tile of the result is some point's. -/
theorem idx_onto : ∀ (q0 : Fin 2) (q1 : Fin 4) (q2 : Fin 4), ∃ t : Fin cfg0.N, win0_8.index t = ![q0.val, q1.val, q2.val] :=
  (by decide +kernel : ∀ (q0 : Fin 2) (q1 : Fin 4) (q2 : Fin 4), ∃ t : Fin grid0.N, win0_8.index t = ![q0.val, q1.val, q2.val])

/-- WHAT POINT t WRITES BACK is tile t of the result's function of the arrays the region finds. -/
theorem flushed_eq (c : Dev nD) (t : Fin cfg0.N) :
    (dats m 0 c).flushed 8 t = ((cfg0.win 8).blk t).view.read (Elt Ideal)
      (fromWindows (V m c main_v9) (V m c main_v11) (V m c main_arg1) (V m c main_v12) (V m c main_arg4) (V m c main_v13)
        (V m c main_arg6) (V m c main_v14)) := by
  rw [Cert.KernelIdeal.Value.flushed8_A]
  rw [out_tile c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (iblk m c 6 t) (iblk m c 7 t)]
  obtain ⟨e00, e01, e02, e10, e11, e12, e20, e21, e22, e30, e31, e40, e41, e50, e51, e60, e61, e70, e71⟩ := idx_facts t
  funext j
  have hj0 : (j 0).val < 1 := (j 0).isLt
  refine tile_eq_of_reads (iblk m c 0 t) (iblk m c 1 t) (iblk m c 2 t) (iblk m c 3 t) (iblk m c 4 t) (iblk m c 5 t) (iblk m c 6 t)
    (iblk m c 7 t) (V m c main_v9) (V m c main_v11) (V m c main_arg1) (V m c main_v12) (V m c main_arg4) (V m c main_v13)
    (V m c main_arg6) (V m c main_v14) j (((cfg0.win 8).blk t).view.emb j) ?_ ?_ ?_ ?_ ?_ ?_ ?_ ?_
  · intro h
    show V m c main_v9 (((cfg0.win 0).blk t).view.emb (ix3 (0 : Fin 1) (j 1) h)) = _
    refine congrArg (V m c main_v9) (funext fun a => Fin.ext ?_)
    match a with
    | ⟨0, _⟩ => show win0_0.index t (0 : Fin 3) * 1 + 1 * 0 = win0_8.index t (0 : Fin 3) * 1 + 1 * (j 0).val; omega
    | ⟨1, _⟩ => show win0_0.index t (1 : Fin 3) * 128 + 1 * (j 1).val = win0_8.index t (1 : Fin 3) * 128 + 1 * (j 1).val; omega
    | ⟨2, _⟩ => show win0_0.index t (2 : Fin 3) * 256 + 1 * h.val = h.val; omega
  · intro h
    show V m c main_v11 (((cfg0.win 1).blk t).view.emb (ix3 (0 : Fin 1) (j 2) h)) = _
    refine congrArg (V m c main_v11) (funext fun a => Fin.ext ?_)
    match a with
    | ⟨0, _⟩ => show win0_1.index t (0 : Fin 3) * 1 + 1 * 0 = win0_8.index t (0 : Fin 3) * 1 + 1 * (j 0).val; omega
    | ⟨1, _⟩ => show win0_1.index t (1 : Fin 3) * 128 + 1 * (j 2).val = win0_8.index t (2 : Fin 3) * 128 + 1 * (j 2).val; omega
    | ⟨2, _⟩ => show win0_1.index t (2 : Fin 3) * 256 + 1 * h.val = h.val; omega
  · show V m c main_arg1 (((cfg0.win 2).blk t).view.emb (ix3 (0 : Fin 1) (j 1) (j 2))) = _
    refine congrArg (V m c main_arg1) (funext fun a => Fin.ext ?_)
    match a with
    | ⟨0, _⟩ => show win0_2.index t (0 : Fin 3) * 1 + 1 * 0 = win0_8.index t (0 : Fin 3) * 1 + 1 * (j 0).val; omega
    | ⟨1, _⟩ => show win0_2.index t (1 : Fin 3) * 128 + 1 * (j 1).val = win0_8.index t (1 : Fin 3) * 128 + 1 * (j 1).val; omega
    | ⟨2, _⟩ => show win0_2.index t (2 : Fin 3) * 128 + 1 * (j 2).val = win0_8.index t (2 : Fin 3) * 128 + 1 * (j 2).val; omega
  · intro h
    show V m c main_v12 (((cfg0.win 3).blk t).view.emb (ix2 (0 : Fin 1) h)) = _
    refine congrArg (V m c main_v12) (funext fun a => Fin.ext ?_)
    match a with
    | ⟨0, _⟩ => show win0_3.index t (0 : Fin 2) * 1 + 1 * 0 = 0; omega
    | ⟨1, _⟩ => show win0_3.index t (1 : Fin 2) * 256 + 1 * h.val = h.val; omega
  · intro h n
    show V m c main_arg4 (((cfg0.win 4).blk t).view.emb (ix2 h n)) = _
    refine congrArg (V m c main_arg4) (funext fun a => Fin.ext ?_)
    match a with
    | ⟨0, _⟩ => show win0_4.index t (0 : Fin 2) * 256 + 1 * h.val = h.val; omega
    | ⟨1, _⟩ => show win0_4.index t (1 : Fin 2) * 128 + 1 * n.val = n.val; omega
  · intro n
    show V m c main_v13 (((cfg0.win 5).blk t).view.emb (ix2 (0 : Fin 1) n)) = _
    refine congrArg (V m c main_v13) (funext fun a => Fin.ext ?_)
    match a with
    | ⟨0, _⟩ => show win0_5.index t (0 : Fin 2) * 1 + 1 * 0 = 0; omega
    | ⟨1, _⟩ => show win0_5.index t (1 : Fin 2) * 128 + 1 * n.val = n.val; omega
  · intro n
    show V m c main_arg6 (((cfg0.win 6).blk t).view.emb (ix2 n (0 : Fin 1))) = _
    refine congrArg (V m c main_arg6) (funext fun a => Fin.ext ?_)
    match a with
    | ⟨0, _⟩ => show win0_6.index t (0 : Fin 2) * 128 + 1 * n.val = n.val; omega
    | ⟨1, _⟩ => show win0_6.index t (1 : Fin 2) * 1 + 1 * 0 = 0; omega
  · show V m c main_v14 (((cfg0.win 7).blk t).view.emb (ix2 (0 : Fin 1) (0 : Fin 1))) = _
    refine congrArg (V m c main_v14) (funext fun a => Fin.ext ?_)
    match a with
    | ⟨0, _⟩ => show win0_7.index t (0 : Fin 2) * 1 + 1 * 0 = 0; omega
    | ⟨1, _⟩ => show win0_7.index t (1 : Fin 2) * 1 + 1 * 0 = 0; omega

/-- An index of the result is in point t's tile iff each coordinate is in the tile's range on its axis. -/
theorem mem_blk (t : Fin cfg0.N) (i : S2x512x512.Idx) :
    i ∈ ((cfg0.win 8).blk t).view.set ↔ ∀ a : Fin 3, win0_8.index t a * S1x128x128.size a ≤ (i a).val
      ∧ (i a).val < win0_8.index t a * S1x128x128.size a + S1x128x128.size a := by
  show i ∈ ((View.whole main_v15).slice (win0_8.rect t)).set ↔ _
  rw [View.set_slice_whole, Rect.mem_set_unit]
  exact Iff.rfl

/-- The 32 tiles cover the result: index (b, p, q) is in the tile of the point (b, p / 128, q / 128). -/
theorem cover (i : S2x512x512.Idx) : ∃ t : Fin cfg0.N, (cfg0.win 8).flush t = true ∧ i ∈ ((cfg0.win 8).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, by omega⟩ ⟨(i 1).val / 128, by omega⟩ ⟨(i 2).val / 128, by omega⟩
  have q0 : win0_8.index t (0 : Fin 3) = (i 0).val := congrFun ht 0
  have q1 : win0_8.index t (1 : Fin 3) = (i 1).val / 128 := congrFun ht 1
  have q2 : win0_8.index t (2 : Fin 3) = (i 2).val / 128 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-- The arrays the region finds, as the host's operations of the arguments. -/
theorem found_v9 (c : Dev nD) : (V m c main_v9 : S2x512x256.Idx → EReal)
    = firstWithBias (m ((c : Thread nD τ).loc main_arg0)) (m ((c : Thread nD τ).loc main_arg2)) (m ((c : Thread nD τ).loc main_arg3)) := by
  dsimp only [Gen.V, Gen.hostOps0]; after_results; rfl
theorem found_v11 (c : Dev nD) : (V m c main_v11 : S2x512x256.Idx → EReal)
    = projRows 256 slices_S513x256_S256x256_256_0 (m ((c : Thread nD τ).loc main_arg0)) (m ((c : Thread nD τ).loc main_arg2)) := by
  dsimp only [Gen.V, Gen.hostOps0]; after_results; rfl
theorem found_v12 (c : Dev nD) : (V m c main_v12 : S1x256.Idx → EReal) = lastRow (m ((c : Thread nD τ).loc main_arg2)) := by
  dsimp only [Gen.V, Gen.hostOps0]; after_results; rfl
theorem found_v13 (c : Dev nD) : (V m c main_v13 : S1x128.Idx → EReal)
    = shapeCast S1x128 (m ((c : Thread nD τ).loc main_arg5)) shapeCasts_S128_S1x128 := by
  dsimp only [Gen.V, Gen.hostOps0]; after_results; rfl
theorem found_v14 (c : Dev nD) : (V m c main_v14 : S1x1.Idx → EReal)
    = shapeCast S1x1 (m ((c : Thread nD τ).loc main_arg7)) shapeCasts_S1_S1x1 := by
  dsimp only [Gen.V, Gen.hostOps0]; after_results; rfl

/-- THE RESULT ARRAY after the run: the pairwise scorer of the eight arguments. -/
theorem final (c : Dev nD) : (dats m 0 c).arrAt 8 cfg0.N
    = scores (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [(dats m 0 c).arrAt_eq_of_cover 8 _ (fun t _ => flushed_eq m c t) cover]
  rw [found_v9, found_v11, found_v12, found_v13, found_v14, V_main_arg1, V_main_arg4, V_main_arg6]
  exact fromWindows_host _ _ _ _ _ _ _ _

/-- The kernel's run: every weakly fair execution terminates with the result at the pairwise scorer of the arguments, the
    arguments unchanged. -/
theorem run : θ_run defs (onTc (τ := τ) (main (F := Ideal))) ⟨m, fun _ => 0, ρ⟩ fun r => ∀ c : Dev nD,
      r.2.mem ((c : Thread nD τ).loc main_v15)
        = scores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelScore

end
-- ==== Proof.RefScore.lean ====
/-
  The reference program computes the pairwise scorer: its result term, read one operation at a time at an index
  (b, p, q), is `PairScore.scores` of the eight arguments there.

  Reading inward from the result: the last reshape drops a unit axis; the 128 × 1 layer is a sum over n of the second
  hidden row times W₃(n, 0), plus b₃; the second hidden row is the clamp of the 256 × 128 layer plus b₂; the first hidden row
  is the clamp of (node p's projection + node q's projection + prior(b, p, q) · W₁(512, ·)) + b₁, the projections being the
  contractions of the node features with rows 0 … 255 and 256 … 511 of W₁. Every broadcast only repeats a coordinate.
-/
import proofs.«114371_j30897994727574_2_alg».proof.Proof.Gen.ReferenceIdeal.Read
import proofs.«114371_j30897994727574_2_alg».proof.Proof.PairScore

noncomputable section

namespace Cert.RefScore

open Cert.ReferenceIdeal Cert.ReferenceIdeal.Read Idealize.ShloMosaic Idealize.ShloMosaic.ValueIdx Cert.PairScore

variable (x0 : (⟨S2x512x256, .f32⟩ : BufTy).Contents (Elt Ideal)) (x1 : (⟨S2x512x512, .f32⟩ : BufTy).Contents (Elt Ideal))
  (x2 : (⟨S513x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))
  (x6 : (⟨S128x1, .f32⟩ : BufTy).Contents (Elt Ideal)) (x7 : (⟨S1, .f32⟩ : BufTy).Contents (Elt Ideal))

/-- The first contraction: node p of batch b against rows 0 … 255 of W₁. -/
theorem proj_lo (b : Fin 2) (p : Fin 512) (h : Fin 256) :
    val_main_v1 (F := Ideal) x0 x2 (ix3 b p h) = proj 0 (by omega) x0 x2 b p h := by
  rw [val_main_v1_apply]
  unfold proj
  refine Finset.sum_congr rfl fun k _ => ?_
  rw [val_main_v0_apply]
  have e1 : lidx_main_v1 (ix3 b p h) k = ix3 b p k :=
    funext fun a => match a with | ⟨0, _⟩ => rfl | ⟨1, _⟩ => rfl | ⟨2, _⟩ => rfl
  have e2 : idx_main_v0 (ridx_main_v1 (ix3 b p h) k) = ix2 (⟨0 + k.val, by have := k.isLt; omega⟩ : Fin 513) h :=
    funext fun a => match a with | ⟨0, _⟩ => Fin.ext (Nat.zero_add _).symm | ⟨1, _⟩ => rfl
  rw [e1, e2]

/-- The second contraction: node q of batch b against rows 256 … 511 of W₁. -/
theorem proj_hi (b : Fin 2) (q : Fin 512) (h : Fin 256) :
    val_main_v3 (F := Ideal) x0 x2 (ix3 b q h) = proj 256 (by omega) x0 x2 b q h := by
  rw [val_main_v3_apply]
  unfold proj
  refine Finset.sum_congr rfl fun k _ => ?_
  rw [val_main_v2_apply]
  have e1 : lidx_main_v3 (ix3 b q h) k = ix3 b q k :=
    funext fun a => match a with | ⟨0, _⟩ => rfl | ⟨1, _⟩ => rfl | ⟨2, _⟩ => rfl
  have e2 : idx_main_v2 (ridx_main_v3 (ix3 b q h) k) = ix2 (⟨256 + k.val, by have := k.isLt; omega⟩ : Fin 513) h :=
    funext fun a => match a with | ⟨0, _⟩ => rfl | ⟨1, _⟩ => rfl
  rw [e1, e2]

/-- The first hidden row of the pair (p, q) of batch b, at unit h. -/
theorem hidden_row (b : Fin 2) (p q : Fin 512) (h : Fin 256) :
    val_main_v20 (F := Ideal) x0 x1 x2 x3 (ix4 b p q h)
      = hidden (proj 0 (by omega) x0 x2 b p h) (proj 256 (by omega) x0 x2 b q h) (x1 (ix3 b p q))
          (x2 (ix2 (⟨512, by omega⟩ : Fin 513) h)) (x3 (ix1 h)) := by
  rw [val_main_v20_apply, val_main_v19_apply, val_main_v16_apply, val_main_v8_apply, val_main_v15_apply,
    val_main_v6_apply, val_main_v4_apply, val_main_v7_apply, val_main_v5_apply, val_main_v13_apply, val_main_v9_apply,
    val_main_v14_apply, val_main_v12_apply, val_main_v11_apply, val_main_v10_apply, val_main_v18_apply, val_main_v17_apply,
    val_main_call0_v0_apply, val_main_call0_cst_apply]
  have e1 : idx_main_v4 (idx_main_v6 (ix4 b p q h)) = ix3 b p h :=
    funext fun a => match a with | ⟨0, _⟩ => rfl | ⟨1, _⟩ => rfl | ⟨2, _⟩ => rfl
  have e2 : idx_main_v5 (idx_main_v7 (ix4 b p q h)) = ix3 b q h :=
    funext fun a => match a with | ⟨0, _⟩ => rfl | ⟨1, _⟩ => rfl | ⟨2, _⟩ => rfl
  have e3 : idx_main_v9 (idx_main_v13 (ix4 b p q h)) = ix3 b p q :=
    funext fun a => match a with | ⟨0, _⟩ => rfl | ⟨1, _⟩ => rfl | ⟨2, _⟩ => rfl
  have e4 : idx_main_v10 (idx_main_v11 (idx_main_v12 (idx_main_v14 (ix4 b p q h)))) = ix2 (⟨512, by omega⟩ : Fin 513) h :=
    funext fun a => match a with
      | ⟨0, _⟩ => rfl
      | ⟨1, _⟩ => Fin.ext (Nat.mod_eq_of_lt h.isLt)
  have e5 : idx_main_v17 (idx_main_v18 (ix4 b p q h)) = ix1 h :=
    funext fun a => match a with | ⟨0, _⟩ => rfl
  rw [e1, e2, e3, e4, e5, proj_lo, proj_hi]
  show max ((((proj 0 _ x0 x2 b p h) + (proj 256 _ x0 x2 b q h)) + x1 (ix3 b p q) * x2 (ix2 (⟨512, _⟩ : Fin 513) h)) + x3 (ix1 h))
      (Ideal.ofBits .f32 0x00000000#32) = _
  rw [Ideal.ofBits_zero_f32]
  rfl

/-- The second hidden row of the pair, at unit n. -/
theorem second_row (b : Fin 2) (p q : Fin 512) (n : Fin 128) :
    val_main_v25 (F := Ideal) x0 x1 x2 x3 x4 x5 (ix4 b p q n)
      = max ((∑ h : Fin 256, val_main_v20 (F := Ideal) x0 x1 x2 x3 (ix4 b p q h) * x4 (ix2 h n)) + x5 (ix1 n)) 0 := by
  rw [val_main_v25_apply, val_main_v24_apply, val_main_v21_apply, val_main_v23_apply, val_main_v22_apply,
    val_main_call1_v0_apply, val_main_call1_cst_apply]
  have e1 : ∀ k : Fin 256, lidx_main_v21 (ix4 b p q n) k = ix4 b p q k := fun k =>
    funext fun a => match a with | ⟨0, _⟩ => rfl | ⟨1, _⟩ => rfl | ⟨2, _⟩ => rfl | ⟨3, _⟩ => rfl
  have e2 : ∀ k : Fin 256, ridx_main_v21 (ix4 b p q n) k = ix2 k n := fun k =>
    funext fun a => match a with | ⟨0, _⟩ => rfl | ⟨1, _⟩ => rfl
  have e3 : idx_main_v22 (idx_main_v23 (ix4 b p q n)) = ix1 n :=
    funext fun a => match a with | ⟨0, _⟩ => rfl
  simp only [e1, e2]
  rw [e3]
  show max ((∑ h : Fin 256, val_main_v20 (F := Ideal) x0 x1 x2 x3 (ix4 b p q h) * x4 (ix2 h n)) + x5 (ix1 n))
      (Ideal.ofBits .f32 0x00000000#32) = _
  rw [Ideal.ofBits_zero_f32]

/-- THE REFERENCE'S RESULT is the pairwise scorer of its arguments. -/
theorem result_eq : val_main_v30 (F := Ideal) x0 x1 x2 x3 x4 x5 x6 x7 = scores x0 x1 x2 x3 x4 x5 x6 x7 := by
  funext i
  obtain ⟨b, p, q, rfl⟩ : ∃ (b : Fin 2) (p q : Fin 512), i = ix3 b p q := ⟨i 0, i 1, i 2, eq_ix3 i⟩
  rw [val_main_v30_apply, val_main_v29_apply, val_main_v26_apply, val_main_v28_apply, val_main_v27_apply]
  have hb := b.isLt
  have hp := p.isLt
  have hq := q.isLt
  have e0 : idx_main_v30 (ix3 b p q) = ix4 b p q (0 : Fin 1) :=
    funext fun a => match a with
      | ⟨0, _⟩ => Fin.ext (by show ((b.val * 512 + p.val) * 512 + q.val) / 262144 = b.val; omega)
      | ⟨1, _⟩ => Fin.ext (by show ((b.val * 512 + p.val) * 512 + q.val) / 512 % 512 = p.val; omega)
      | ⟨2, _⟩ => Fin.ext (by show ((b.val * 512 + p.val) * 512 + q.val) / 1 % 512 = q.val; omega)
      | ⟨3, _⟩ => rfl
  rw [e0]
  have e1 : ∀ k : Fin 128, lidx_main_v26 (ix4 b p q (0 : Fin 1)) k = ix4 b p q k := fun k =>
    funext fun a => match a with | ⟨0, _⟩ => rfl | ⟨1, _⟩ => rfl | ⟨2, _⟩ => rfl | ⟨3, _⟩ => rfl
  have e2 : ∀ k : Fin 128, ridx_main_v26 (ix4 b p q (0 : Fin 1)) k = ix2 k (0 : Fin 1) := fun k =>
    funext fun a => match a with | ⟨0, _⟩ => rfl | ⟨1, _⟩ => rfl
  have e3 : idx_main_v27 (idx_main_v28 (ix4 b p q (0 : Fin 1))) = ix1 (0 : Fin 1) :=
    funext fun a => match a with | ⟨0, _⟩ => rfl
  simp only [e1, e2, second_row, hidden_row]
  rw [e3]
  rfl

end Cert.RefScore

end
-- ==== Proof.lean ====
/-
  The kernel scores every pair (i, j) of nodes of every batch by a three-layer network on (projection of node i, projection
  of node j, prior of the pair); the reference does the same on the whole [2, 512, 512, 256] tensor at once.

  On the extended reals both results are ONE function of the eight arguments, `PairScore.scores`. The kernel side: its frame
  is the generated one; each grid point's stores tile its 128 × 128 output block with restrictions of one function of the
  block index (`TileScores.out_tile`), every block is the restriction of one function of the arrays the region finds, the 32
  blocks cover the result, and the host-formed arrays read back as the arguments' projections (`KernelScore.run`). The
  reference side: its generated run, read one operation at a time (`RefScore.result_eq`). The two arrangements differ only in
  where the first bias is added, and addition on the extended reals commutes and associates at the infinities as well, so the
  precondition is not used. The word-level kernel's idealization rewrote nothing, so that claim is `True`.
-/
import proofs.«114371_j30897994727574_2_alg».proof.Defs
import proofs.«114371_j30897994727574_2_alg».proof.Proof.Gen.Kernel
import proofs.«114371_j30897994727574_2_alg».proof.Proof.Gen.Kernel.Skeleton
import proofs.«114371_j30897994727574_2_alg».proof.Proof.Gen.Kernel.Loops
import proofs.«114371_j30897994727574_2_alg».proof.Proof.Gen.Kernel.Launch
import proofs.«114371_j30897994727574_2_alg».proof.Proof.Gen.Kernel.Points
import proofs.«114371_j30897994727574_2_alg».proof.Proof.Gen.Kernel.Frame
import proofs.«114371_j30897994727574_2_alg».proof.Proof.Gen.KernelIdeal
import proofs.«114371_j30897994727574_2_alg».proof.Proof.Gen.KernelIdeal.Skeleton
import proofs.«114371_j30897994727574_2_alg».proof.Proof.Gen.KernelIdeal.Loops
import proofs.«114371_j30897994727574_2_alg».proof.Proof.Gen.KernelIdeal.Launch
import proofs.«114371_j30897994727574_2_alg».proof.Proof.Gen.KernelIdeal.Points
import proofs.«114371_j30897994727574_2_alg».proof.Proof.Gen.KernelIdeal.Frame
import proofs.«114371_j30897994727574_2_alg».proof.Proof.Gen.ReferenceIdeal
import proofs.«114371_j30897994727574_2_alg».proof.Proof.Gen.Pre_finite_inputs
import proofs.«114371_j30897994727574_2_alg».proof.Proof.Gen.KernelIdeal.Value
import proofs.«114371_j30897994727574_2_alg».proof.Proof.Gen.ReferenceIdeal.Run
import proofs.«114371_j30897994727574_2_alg».proof.Proof.Gen.ReferenceIdeal.Read
import proofs.«114371_j30897994727574_2_alg».proof.Proof.KernelScore
import proofs.«114371_j30897994727574_2_alg».proof.Proof.RefScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the pairwise scorer of arguments that agree. -/
theorem algebraic : Cert.algebraic_KernelIdeal_ReferenceIdeal := by
  intro m ρ m' ρ' _ hagree
  refine ⟨fun c => Cert.PairScore.scores (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)),
    Cert.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.RefScore.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
